-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S128 .f32) (main_arg5 : FVec F S128x768 .f32) (main_arg6 : FVec F S768 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x768 .f32 := Host.absf main_arg5
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S100000x768 .f32) (main_arg1 : FVec F S768x128 .f32) (main_arg2 : FVec F S128 .f32) (main_arg3 : FVec F S128x128 .f32) (main_arg4 : FVec F S128 .f32) (main_arg5 : FVec F S128x768 .f32) (main_arg6 : FVec F S768 .f32) (main_arg7 : IVec S1600000 32) (main_arg8 : IVec S1600000 32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S100000x128 : Shape := ⟨2, ![100000, 128]⟩
abbrev S2000x768 : Shape := ⟨2, ![2000, 768]⟩
abbrev S2000x1 : Shape := ⟨2, ![2000, 1]⟩
abbrev S2000x128 : Shape := ⟨2, ![2000, 128]⟩
abbrev S1600000x128 : Shape := ⟨2, ![1600000, 128]⟩
abbrev S1x768 : Shape := ⟨2, ![1, 768]⟩

abbrev nBuf : Space → Nat
  | .hbm => 48
  | .vmem => 18
  | .smem => 0
  | _ => 0

abbrev bufTy : (tb : Table) → Fin (tcTables nBuf tb) → BufTy
  | .hbm, ⟨0, _⟩ => ⟨S100000x768, .f32⟩
  | .hbm, ⟨1, _⟩ => ⟨S768x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x768, .f32⟩
  | .hbm, ⟨6, _⟩ => ⟨S768, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S1x128, .f32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S1x768, .f32⟩
  | .hbm, ⟨46, _⟩ => ⟨S100000x1, .f32⟩
  | .hbm, ⟨47, _⟩ => ⟨S100000x768, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S2000x1, .f32⟩
  | .local _ .vmem, ⟨5, _⟩ => ⟨S2000x1, .f32⟩
  | .local _ .vmem, ⟨6, _⟩ => ⟨S2000x128, .bf16⟩
  | .local _ .vmem, ⟨7, _⟩ => ⟨S2000x128, .bf16⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S128x768, .f32⟩
  | .local _ .vmem, ⟨15, _⟩ => ⟨S1x768, .f32⟩
  | .local _ .vmem, ⟨16, _⟩ => ⟨S2000x768, .f32⟩
  | .local _ .vmem, ⟨17, _⟩ => ⟨S2000x768, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  shapeCasts_S100000_S100000x1 : S100000.ShapeCasts S100000x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  shapeCasts_S768_S1x768 : S768.ShapeCasts S1x768
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x768_S128x768_0_0 : ∀ a, (![0, 0] : Fin 2 → Nat) a + S128x768.size a ≤ S128x768.size a
  h_S128x768 : 0 < S128x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  scatter_S100000_S1600000x1_S1600000_n_0_0_1_wf : ScatterDims.WF S100000 S1600000x1 S1600000 [] [0] [0] 1
  dot_S2000x768_S768x128_S2000x128_1_0_0_1_n_n_wf : DotDims.WF S2000x768 S768x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x768_S2000x768_1_0_0_1_n_n_wf : DotDims.WF S2000x128 S128x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .bf16 = 32 ∨ (Rect.block (s := S100000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x768.size a ≤ S128x768.size a
  hwx1_4 : ∀ i : grid1.Coords, EltTy.bits .f32 = 32 ∨ (Rect.block (s := S128x768) S128x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x768.size a ≤ S100000x768.size a
  hwx1_6 : ∀ i : grid1.Coords, EltTy.bits .f32 = 32 ∨ (Rect.block (s := S100000x768) S2000x768.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x768 : Shape := ⟨2, ![1, 768]⟩

abbrev nBuf : Space → Nat
  | .hbm => 58
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S768x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x768, .f32⟩
  | .hbm, ⟨6, _⟩ => ⟨S768, .f32⟩
  | .hbm, ⟨7, _⟩ => ⟨S1600000, .i32⟩
  | .hbm, ⟨8, _⟩ => ⟨S1600000, .i32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x768, .f32⟩
  | .hbm, ⟨55, _⟩ => ⟨S1x768, .f32⟩
  | .hbm, ⟨56, _⟩ => ⟨S100000x768, .f32⟩
  | .hbm, ⟨57, _⟩ => ⟨S100000x768, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  dot_S100000x768_S768x128_S100000x128_1_0_0_1_n_n_wf : DotDims.WF S100000x768 S768x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x768_S100000x768_1_0_0_1_n_n_wf : DotDims.WF S100000x128 S128x768 S100000x768 [1] [0] [0] [1] [] []

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x768_S100000x768_1_0_0_1_n_n : DotDims S100000x128 S128x768 S100000x768 where
  lhsContracting := [1]
  rhsContracting := [0]
  lhsNonContracting := [0]
  rhsNonContracting := [1]
  lhsBatch := []
  rhsBatch := []
  wf := dot_S100000x128_S128x768_S100000x768_1_0_0_1_n_n_wf

class Facts : Prop extends Facts₀ where

variable [Facts]
-- ==== Proof.WholeRun.lean ====
/-
  The whole program's run with the final contents kept.

  @main runs as four segments: the host operations that compute the two degree norms and reshape the bias and the
  source norm, the first kernel, the host operations that gather along the edges, accumulate at the destinations
  and reshape the remaining operands, and the second kernel. Every weakly fair execution terminates without a
  fault, and every unscoped buffer ends at the fold of those four segments over the launch memory: a host stretch
  applies its operations in order, a kernel replaces its windows' arrays by what its write-backs leave. The result
  buffer and the nine arguments are read off that fold.
-/
import proofs.«158182_j76330158785174_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault with every unscoped buffer at the four segments' fold. -/
theorem ends_at_fold : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer ends at the fold's contents of it, and the nine arguments end as launched. -/
theorem result_at_fold : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v30 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)
    (ends_at_fold m ρ)

end Cert.KernelIdeal.WholeRun

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.RowMaps.lean ====
/-
  The two row-wise maps of a graph convolution normalised by both degrees, placed between a projection down to
  128 features and a projection back up to 768.

  Row r of the first map: the r-th feature row times Wd, plus the bias, the whole row then scaled by the
  source-degree norm of node r.  Row r of the second: the r-th aggregated row scaled by the destination-degree norm
  of node r, times Wg, plus a bias, times Wu, plus a bias.

  Each acts on every row independently of all the other rows: a block of consecutive rows of the result is the same
  map of that block of rows of the row-indexed operands.  That is all a tiling of the node axis needs.
  Sums are finite sums of extended reals; nothing here needs an entry to be finite.
-/
import Idealize.ShloMosaic.PureOps.Ideal
import Idealize.ShloMosaic.Lib.ValueIdx

noncomputable section

namespace Cert.RowMaps

open Idealize.ShloMosaic Idealize.ShloMosaic.ValueIdx

/-- An R × C array of extended reals. -/
abbrev Mat (R C : Nat) : Type := (⟨2, ![R, C]⟩ : Shape).Idx → EReal

/-- (x · Wd + b), each row scaled by its own entry of the column s. -/
def down {R : Nat} (x : Mat R 768) (wd : Mat 768 128) (b : Mat 1 128) (s : Mat R 1) : Mat R 128 :=
  fun i => ((∑ k : Fin 768, x (ix2 (i 0) k) * wd (ix2 k (i 1))) + b (ix2 0 (i 1))) * s (ix2 (i 0) 0)

/-- ((a with each row scaled by its own entry of s) · Wg + bg) · Wu + bu. -/
def up {R : Nat} (a : Mat R 128) (s : Mat R 1) (wg : Mat 128 128) (bg : Mat 1 128) (wu : Mat 128 768)
    (bu : Mat 1 768) : Mat R 768 :=
  fun i => (∑ k : Fin 128, ((∑ l : Fin 128, (a (ix2 (i 0) l) * s (ix2 (i 0) 0)) * wg (ix2 l k)) + bg (ix2 0 k))
      * wu (ix2 k (i 1))) + bu (ix2 0 (i 1))

/-- Rows off, …, off + B − 1 of `down`: the same map of those rows of x and of s. -/
theorem down_rows {R B : Nat} (off : Nat) (h : off + B ≤ R) (x : Mat R 768) (wd : Mat 768 128) (b : Mat 1 128)
    (s : Mat R 1) (j : (⟨2, ![B, 128]⟩ : Shape).Idx) :
    down x wd b s (ix2 ⟨off + (j 0).val, by have := (j 0).isLt; simp at this; omega⟩ (j 1))
      = down (R := B) (fun y => x (ix2 ⟨off + (y 0).val, by have := (y 0).isLt; simp at this; omega⟩ (y 1))) wd b
          (fun y => s (ix2 ⟨off + (y 0).val, by have := (y 0).isLt; simp at this; omega⟩ (y 1))) j := rfl

/-- Rows off, …, off + B − 1 of `up`: the same map of those rows of a and of s. -/
theorem up_rows {R B : Nat} (off : Nat) (h : off + B ≤ R) (a : Mat R 128) (s : Mat R 1) (wg : Mat 128 128)
    (bg : Mat 1 128) (wu : Mat 128 768) (bu : Mat 1 768) (j : (⟨2, ![B, 768]⟩ : Shape).Idx) :
    up a s wg bg wu bu (ix2 ⟨off + (j 0).val, by have := (j 0).isLt; simp at this; omega⟩ (j 1))
      = up (R := B) (fun y => a (ix2 ⟨off + (y 0).val, by have := (y 0).isLt; simp at this; omega⟩ (y 1)))
          (fun y => s (ix2 ⟨off + (y 0).val, by have := (y 0).isLt; simp at this; omega⟩ (y 1))) wg bg wu bu j := rfl

end Cert.RowMaps

end
-- ==== Proof.DownBody.lean ====
/-
  What one grid point of the first kernel stores, at the ideal instance: for its block of 2000 feature rows x,
  the whole weight Wd, the bias row b and its block s of the source-degree norm column, the stored block is
  (x · Wd + b) with row r scaled by s(r) — the row-wise map `RowMaps.down` of the loaded blocks.

  The changes of float format around the product and before the store are the identity on extended reals; the
  product into the zero accumulator is the plain sum over the 768 contraction positions; the bias row is
  broadcast down the rows and the norm column across the 128 lanes.
-/
import proofs.«158182_j76330158785174_2_alg».proof.Proof.Gen.KernelIdeal.Skeleton
import proofs.«158182_j76330158785174_2_alg».proof.Proof.LibMatmulRows
import proofs.«158182_j76330158785174_2_alg».proof.Proof.RowMaps
import Idealize.ShloMosaic.Lib.Pipeline.Value
import Idealize.ShloMosaic.Lib.ValueIdx

noncomputable section

namespace Cert.KernelIdeal.DownBody

open Cert.KernelIdeal Cert.KernelIdeal.Gen Idealize.ShloMosaic Idealize.ShloMosaic.ValueIdx

/-- The left operand's row is the output's row, whatever the contraction position. -/
theorem down_lhs_row (i : S2000x128.Idx) (q : dot_S2000x768_S768x128_S2000x128_1_0_0_1_n_n.contr.Idx) : (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide),
    dif_pos (show (0 : Fin S2000x768.rank) ∈ dot_S2000x768_S768x128_S2000x128_1_0_0_1_n_n.lhsNonContracting by decide)]
  rfl

/-- The right operand's column is the output's column, whatever the contraction position. -/
theorem down_rhs_col (i : S2000x128.Idx) (q : dot_S2000x768_S768x128_S2000x128_1_0_0_1_n_n.contr.Idx) : (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide),
    dif_pos (show (1 : Fin S768x128.rank) ∈ dot_S2000x768_S768x128_S2000x128_1_0_0_1_n_n.rhsNonContracting by decide)]
  rfl

/-- The bias row broadcast down the 2000 rows reads, at (r, q), the bias at (0, q). -/
theorem bias_rows (b : Vec Ideal S1x128 .f32) (j : S2000x128.Idx) :
    broadcastTo S2000x128 (shapeCast S1x128 b shapeCasts_S1x128_S1x128) broadcasts_S1x128_S2000x128 j = b (ix2 0 (j 1)) := by
  rw [shapeCast_self]
  exact broadcastTo_apply b broadcasts_S1x128_S2000x128 j (ix2 0 (j 1)) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The norm column broadcast across the 128 lanes reads, at (r, q), the column at (r, 0). -/
theorem norm_lanes (s : Vec Ideal S2000x1 .f32) (j : S2000x128.Idx) :
    broadcastTo S2000x128 (shapeCast S2000x1 s shapeCasts_S2000x1_S2000x1) broadcasts_S2000x1_S2000x128 j = s (ix2 (j 0) 0) := by
  rw [shapeCast_self]
  exact broadcastTo_apply s broadcasts_S2000x1_S2000x128 j (ix2 (j 0) 0) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])

/-- The stored block is the row-wise map of the loaded blocks. -/
theorem payload (x : Vec Ideal S2000x768 .f32) (wd : Vec Ideal S768x128 .f32) (b : Vec Ideal S1x128 .f32)
    (s : Vec Ideal S2000x1 .f32) : k0_pay1 (F := Ideal) x wd b s = RowMaps.down (R := 2000) x wd b s := by
  funext j
  unfold k0_pay1 RowMaps.down
  rw [truncf_apply, mulf_apply, addf_apply, bias_rows, norm_lanes]
  simp only [matmul]
  rw [MatmulRows.matmul_zero_apply dot_S2000x768_S768x128_S2000x128_1_0_0_1_n_n none rfl rfl rfl rfl down_lhs_row down_rhs_col]
  rfl

end Cert.KernelIdeal.DownBody

end
-- ==== Proof.DownRegion.lean ====
/-
  The first kernel's output array after its 50 grid points, for any contents V of the buffers when the region is
  entered: the row-wise map `RowMaps.down` of the four arrays its input windows read.

  Point t reads rows 2000 t … 2000 t + 1999 of the features and of the norm column, the whole weight and the whole
  bias row, and writes back rows 2000 t … 2000 t + 1999 of the output. Since the map acts row by row, what point t
  writes back is those rows of the map applied to the whole arrays; the 50 blocks of rows tile the 100000 rows (row
  r lies in block r / 2000), so the array ends at the map of the whole arrays.
-/
import proofs.«158182_j76330158785174_2_alg».proof.Proof.Gen.KernelIdeal.Frame
import proofs.«158182_j76330158785174_2_alg».proof.Proof.DownBody

set_option maxRecDepth 16384

noncomputable section

namespace Cert.KernelIdeal.DownRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 50 grid points: the feature block, the norm block and the output block sit at the same block row, in
    block column 0; the weight and the bias row are the one block (0, 0). -/
theorem block_positions : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) ≤ 49 ∧ win0_4.index t (1 : Fin 2) = 0 :=
  (by decide +kernel : ∀ t : Fin grid0.N, _)

/-- Every one of the 50 blocks of rows is some point's output block. -/
theorem every_block_row : ∀ q : Fin 50, ∃ t : Fin cfg0.N, win0_4.index t = ![q.val, 0] :=
  (by decide +kernel : ∀ q : Fin 50, ∃ t : Fin grid0.N, win0_4.index t = ![q.val, 0])

/-- What point t writes back is block t of the row-wise map of the arrays the region found. -/
theorem flushed_eq (c : Dev nD) (t : Fin cfg0.N) :
    (dat0 V c).flushed 4 t = ((cfg0.win 4).blk t).view.read (Elt Ideal)
      (RowMaps.down (R := 100000) (V c main_arg0) (V c main_arg1) (V c main_v13) (V c main_v14)) := by
  show (cfg0.win 4).cut (grid0.coords t) ((dat0 V c).after 4 t) = _
  rw [after0_4]
  unfold out0_4
  rw [View.canon_unit_zero zero_offsets]
  simp only [View.ld_unit_zero (S := S2000x768) zero_offsets, View.ld_unit_zero (S := S768x128) zero_offsets,
    View.ld_unit_zero (S := S1x128) zero_offsets, View.ld_unit_zero (S := S2000x1) zero_offsets]
  rw [DownBody.payload]
  obtain ⟨e0, e1, e2, e3, e4, e5, e6, e7, e8, e9⟩ := block_positions t
  refine funext fun (j : S2000x128.Idx) => ?_
  show RowMaps.down (R := 2000) (iblk0 V c 0 t) (iblk0 V c 1 t) (iblk0 V c 2 t) (iblk0 V c 3 t) j
    = RowMaps.down (R := 100000) (V c main_arg0) (V c main_arg1) (V c main_v13) (V c main_v14)
        (((cfg0.win 4).blk t).view.emb j)
  have hx : ∀ k : Fin 768, iblk0 V c 0 t (ix2 (j 0) k)
      = V c main_arg0 (ix2 ((((cfg0.win 4).blk t).view.emb j) 0) k) := fun k => by
    show V c main_arg0 (((cfg0.win 0).blk t).view.emb (ix2 (j 0) k)) = _
    refine congrArg _ (funext fun a => Fin.ext ?_)
    match a with
    | ⟨0, _⟩ =>
      show win0_0.index t (0 : Fin 2) * 2000 + 1 * (j 0).val = win0_4.index t (0 : Fin 2) * 2000 + 1 * (j 0).val
      omega
    | ⟨1, _⟩ => show win0_0.index t (1 : Fin 2) * 768 + 1 * k.val = k.val; omega
  have hw : ∀ k : Fin 768, iblk0 V c 1 t (ix2 k (j 1))
      = V c main_arg1 (ix2 k ((((cfg0.win 4).blk t).view.emb j) 1)) := fun k => by
    show V c main_arg1 (((cfg0.win 1).blk t).view.emb (ix2 k (j 1))) = _
    refine congrArg _ (funext fun a => Fin.ext ?_)
    match a with
    | ⟨0, _⟩ => show win0_1.index t (0 : Fin 2) * 768 + 1 * k.val = k.val; omega
    | ⟨1, _⟩ =>
      show win0_1.index t (1 : Fin 2) * 128 + 1 * (j 1).val = win0_4.index t (1 : Fin 2) * 128 + 1 * (j 1).val
      omega
  have hb : iblk0 V c 2 t (ix2 0 (j 1)) = V c main_v13 (ix2 0 ((((cfg0.win 4).blk t).view.emb j) 1)) := by
    show V c main_v13 (((cfg0.win 2).blk t).view.emb (ix2 0 (j 1))) = _
    refine congrArg _ (funext fun a => Fin.ext ?_)
    match a with
    | ⟨0, _⟩ => show win0_2.index t (0 : Fin 2) * 1 + 1 * 0 = 0; omega
    | ⟨1, _⟩ =>
      show win0_2.index t (1 : Fin 2) * 128 + 1 * (j 1).val = win0_4.index t (1 : Fin 2) * 128 + 1 * (j 1).val
      omega
  have hs : iblk0 V c 3 t (ix2 (j 0) 0) = V c main_v14 (ix2 ((((cfg0.win 4).blk t).view.emb j) 0) 0) := by
    show V c main_v14 (((cfg0.win 3).blk t).view.emb (ix2 (j 0) 0)) = _
    refine congrArg _ (funext fun a => Fin.ext ?_)
    match a with
    | ⟨0, _⟩ =>
      show win0_3.index t (0 : Fin 2) * 2000 + 1 * (j 0).val = win0_4.index t (0 : Fin 2) * 2000 + 1 * (j 0).val
      omega
    | ⟨1, _⟩ => show win0_3.index t (1 : Fin 2) * 1 + 1 * 0 = 0; omega
  unfold RowMaps.down
  simp only [hx, hw, hb, hs]

/-- An index of the output array is in point t's block iff each coordinate is in the block's range on its axis. -/
theorem mem_block (t : Fin cfg0.N) (i : S100000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v15).slice (win0_4.rect t)).set ↔ _
  rw [View.set_slice_whole, Rect.mem_set_unit]
  exact Iff.rfl

/-- Every index of the output array is in some point's block: row r is in block r / 2000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := every_block_row ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 128 ≤ (i 1).val ∧ (i 1).val < win0_4.index t (1 : Fin 2) * 128 + 128
    omega

/-- The output array after the region: the row-wise map of the four arrays the region found. -/
theorem final (c : Dev nD) : (dat0 V c).arrAt 4 cfg0.N
    = RowMaps.down (R := 100000) (V c main_arg0) (V c main_arg1) (V c main_v13) (V c main_v14) :=
  (dat0 V c).arrAt_eq_of_cover 4 _ (fun t _ => flushed_eq V c t) covered

end Cert.KernelIdeal.DownRegion

end
-- ==== Proof.UpBody.lean ====
/-
  What one grid point of the second kernel stores, at the ideal instance: for its block of 2000 aggregated rows a
  and its block s of the destination-degree norm column, with the whole weights Wg, Wu and bias rows bg, bu, the
  stored block is ((a with row r scaled by s(r)) · Wg + bg) · Wu + bu — the row-wise map `RowMaps.up` of the
  loaded blocks.

  Two products, each into a zero accumulator, each the plain sum over its 128 contraction positions; the entry
  (r, k) of the first, plus bg(k), is the left factor of the second. The format changes between them are the
  identity on extended reals.
-/
import proofs.«158182_j76330158785174_2_alg».proof.Proof.Gen.KernelIdeal.Skeleton
import proofs.«158182_j76330158785174_2_alg».proof.Proof.LibMatmulRows
import proofs.«158182_j76330158785174_2_alg».proof.Proof.RowMaps
import Idealize.ShloMosaic.Lib.Pipeline.Value
import Idealize.ShloMosaic.Lib.ValueIdx
import proofs.«158182_j76330158785174_2_alg».proof.Proof.DownBody

noncomputable section

namespace Cert.KernelIdeal.UpBody

open Cert.KernelIdeal Cert.KernelIdeal.Gen Idealize.ShloMosaic Idealize.ShloMosaic.ValueIdx

/-- The left operand's row is the output's row, whatever the contraction position. -/
theorem mid_lhs_row (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column is the output's column, whatever the contraction position. -/
theorem mid_rhs_col (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The left operand's row is the output's row, whatever the contraction position. -/
theorem out_lhs_row (i : S2000x768.Idx) (q : dot_S2000x128_S128x768_S2000x768_1_0_0_1_n_n.contr.Idx) : (dot_S2000x128_S128x768_S2000x768_1_0_0_1_n_n.lhsIdx i q 0).val = (i 0).val := by
  unfold DotDims.lhsIdx
  rw [dif_neg (show ¬(0 : Fin S2000x128.rank) ∈ dot_S2000x128_S128x768_S2000x768_1_0_0_1_n_n.lhsBatch by decide),
    dif_pos (show (0 : Fin S2000x128.rank) ∈ dot_S2000x128_S128x768_S2000x768_1_0_0_1_n_n.lhsNonContracting by decide)]
  rfl

/-- The right operand's column is the output's column, whatever the contraction position. -/
theorem out_rhs_col (i : S2000x768.Idx) (q : dot_S2000x128_S128x768_S2000x768_1_0_0_1_n_n.contr.Idx) : (dot_S2000x128_S128x768_S2000x768_1_0_0_1_n_n.rhsIdx i q 1).val = (i 1).val := by
  unfold DotDims.rhsIdx
  rw [dif_neg (show ¬(1 : Fin S128x768.rank) ∈ dot_S2000x128_S128x768_S2000x768_1_0_0_1_n_n.rhsBatch by decide),
    dif_pos (show (1 : Fin S128x768.rank) ∈ dot_S2000x128_S128x768_S2000x768_1_0_0_1_n_n.rhsNonContracting by decide)]
  rfl

/-- The output bias row broadcast down the 2000 rows reads, at (r, q), the bias at (0, q). -/
theorem bias_rows (b : Vec Ideal S1x768 .f32) (j : S2000x768.Idx) :
    broadcastTo S2000x768 (shapeCast S1x768 b shapeCasts_S1x768_S1x768) broadcasts_S1x768_S2000x768 j = b (ix2 0 (j 1)) := by
  rw [shapeCast_self]
  exact broadcastTo_apply b broadcasts_S1x768_S2000x768 j (ix2 0 (j 1)) (fun a => match a with
    | ⟨0, _⟩ => by show 0 = if (1 : Nat) = 1 then 0 else (j 0).val; rw [if_pos rfl]
    | ⟨1, _⟩ => by show (j 1).val = if (768 : Nat) = 1 then 0 else (j 1).val; rw [if_neg (by decide)])

/-- The stored block is the row-wise map of the loaded blocks. -/
theorem payload (a : Vec Ideal S2000x128 .f32) (s : Vec Ideal S2000x1 .f32) (wg : Vec Ideal S128x128 .f32)
    (bg : Vec Ideal S1x128 .f32) (wu : Vec Ideal S128x768 .f32) (bu : Vec Ideal S1x768 .f32) :
    k1_pay1 (F := Ideal) a s wg bg wu bu = RowMaps.up (R := 2000) a s wg bg wu bu := by
  funext j
  unfold k1_pay1 RowMaps.up
  rw [addf_apply, bias_rows]
  simp only [matmul]
  rw [MatmulRows.matmul_zero_apply dot_S2000x128_S128x768_S2000x768_1_0_0_1_n_n none rfl rfl rfl rfl out_lhs_row out_rhs_col]
  refine congrArg₂ (· + ·) (Finset.sum_congr rfl fun k _ => ?_) rfl
  rw [truncf_apply, truncf_apply, addf_apply, DownBody.bias_rows,
    MatmulRows.matmul_zero_apply dot_S2000x128_S128x128_S2000x128_1_0_0_1_n_n none rfl rfl rfl rfl mid_lhs_row mid_rhs_col]
  refine congrArg₂ (· * ·) (congrArg₂ (· + ·) (Finset.sum_congr rfl fun l _ => ?_) rfl) rfl
  rw [truncf_apply, truncf_apply, mulf_apply, shapeCast_self, DownBody.norm_lanes]

end Cert.KernelIdeal.UpBody

end
-- ==== Proof.UpRegion.lean ====
/-
  The second kernel's output array after its 50 grid points, for any contents V of the buffers when the region is
  entered: the row-wise map `RowMaps.up` of the six arrays its input windows read.

  Point t reads rows 2000 t … 2000 t + 1999 of the aggregated features and of the norm column, the two whole
  weights and the two whole bias rows, and writes back rows 2000 t … 2000 t + 1999 of the output. The map acts row
  by row, so what point t writes back is those rows of the map applied to the whole arrays; the 50 blocks of rows
  tile the 100000 rows (row r lies in block r / 2000), so the array ends at the map of the whole arrays.
-/
import proofs.«158182_j76330158785174_2_alg».proof.Proof.Gen.KernelIdeal.Frame
import proofs.«158182_j76330158785174_2_alg».proof.Proof.UpBody

set_option maxRecDepth 16384

noncomputable section

namespace Cert.KernelIdeal.UpRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Over the 50 grid points: the aggregated block, the norm block and the output block sit at the same block row,
    in block column 0; each weight and each bias row is the one block (0, 0). -/
theorem block_positions : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 49 ∧ win1_6.index t (1 : Fin 2) = 0 :=
  (by decide +kernel : ∀ t : Fin grid1.N, _)

/-- Every one of the 50 blocks of rows is some point's output block. -/
theorem every_block_row : ∀ q : Fin 50, ∃ t : Fin cfg1.N, win1_6.index t = ![q.val, 0] :=
  (by decide +kernel : ∀ q : Fin 50, ∃ t : Fin grid1.N, win1_6.index t = ![q.val, 0])

/-- What point t writes back is block t of the row-wise map of the arrays the region found. -/
theorem flushed_eq (c : Dev nD) (t : Fin cfg1.N) :
    (dat1 V c).flushed 6 t = ((cfg1.win 6).blk t).view.read (Elt Ideal)
      (RowMaps.up (R := 100000) (V c main_v26) (V c main_v29) (V c main_arg3) (V c main_v27) (V c main_arg5)
        (V c main_v28)) := by
  show (cfg1.win 6).cut (grid1.coords t) ((dat1 V c).after 6 t) = _
  rw [after1_6]
  unfold out1_6
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets,
    View.ld_unit_zero (S := S128x768) zero_offsets, View.ld_unit_zero (S := S1x768) zero_offsets]
  rw [UpBody.payload]
  obtain ⟨e0, e1, e2, e3, e4, e5, e6, e7, e8, e9, e10, e11, e12, e13⟩ := block_positions t
  refine funext fun (j : S2000x768.Idx) => ?_
  show RowMaps.up (R := 2000) (iblk1 V c 0 t) (iblk1 V c 1 t) (iblk1 V c 2 t) (iblk1 V c 3 t) (iblk1 V c 4 t)
      (iblk1 V c 5 t) j
    = RowMaps.up (R := 100000) (V c main_v26) (V c main_v29) (V c main_arg3) (V c main_v27) (V c main_arg5)
        (V c main_v28) (((cfg1.win 6).blk t).view.emb j)
  have hAgg : ∀ l : Fin 128, iblk1 V c 0 t (ix2 (j 0) l) = V c main_v26 (ix2 ((((cfg1.win 6).blk t).view.emb j) 0) l) := fun l => by
    show V c main_v26 (((cfg1.win 0).blk t).view.emb (ix2 (j 0) l)) = _
    refine congrArg _ (funext fun a => Fin.ext ?_)
    match a with
    | ⟨0, _⟩ =>
      show win1_0.index t (0 : Fin 2) * 2000 + 1 * (j 0).val = win1_6.index t (0 : Fin 2) * 2000 + 1 * (j 0).val
      omega
    | ⟨1, _⟩ => show win1_0.index t (1 : Fin 2) * 128 + 1 * l.val = l.val; omega
  have hNorm : iblk1 V c 1 t (ix2 (j 0) 0) = V c main_v29 (ix2 ((((cfg1.win 6).blk t).view.emb j) 0) 0) := by
    show V c main_v29 (((cfg1.win 1).blk t).view.emb (ix2 (j 0) 0)) = _
    refine congrArg _ (funext fun a => Fin.ext ?_)
    match a with
    | ⟨0, _⟩ =>
      show win1_1.index t (0 : Fin 2) * 2000 + 1 * (j 0).val = win1_6.index t (0 : Fin 2) * 2000 + 1 * (j 0).val
      omega
    | ⟨1, _⟩ => show win1_1.index t (1 : Fin 2) * 1 + 1 * 0 = 0; omega
  have hWg : ∀ (l : Fin 128) (k : Fin 128), iblk1 V c 2 t (ix2 l k) = V c main_arg3 (ix2 l k) := fun l k => by
    show V c main_arg3 (((cfg1.win 2).blk t).view.emb (ix2 l k)) = _
    refine congrArg _ (funext fun a => Fin.ext ?_)
    match a with
    | ⟨0, _⟩ => show win1_2.index t (0 : Fin 2) * 128 + 1 * l.val = l.val; omega
    | ⟨1, _⟩ => show win1_2.index t (1 : Fin 2) * 128 + 1 * k.val = k.val; omega
  have hBg : ∀ k : Fin 128, iblk1 V c 3 t (ix2 0 k) = V c main_v27 (ix2 0 k) := fun k => by
    show V c main_v27 (((cfg1.win 3).blk t).view.emb (ix2 0 k)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  have hWu : ∀ k : Fin 128, iblk1 V c 4 t (ix2 k (j 1)) = V c main_arg5 (ix2 k ((((cfg1.win 6).blk t).view.emb j) 1)) := fun k => by
    show V c main_arg5 (((cfg1.win 4).blk t).view.emb (ix2 k (j 1))) = _
    refine congrArg _ (funext fun a => Fin.ext ?_)
    match a with
    | ⟨0, _⟩ => show win1_4.index t (0 : Fin 2) * 128 + 1 * k.val = k.val; omega
    | ⟨1, _⟩ =>
      show win1_4.index t (1 : Fin 2) * 768 + 1 * (j 1).val = win1_6.index t (1 : Fin 2) * 768 + 1 * (j 1).val
      omega
  have hBu : iblk1 V c 5 t (ix2 0 (j 1)) = V c main_v28 (ix2 0 ((((cfg1.win 6).blk t).view.emb j) 1)) := by
    show V c main_v28 (((cfg1.win 5).blk t).view.emb (ix2 0 (j 1))) = _
    refine congrArg _ (funext fun a => Fin.ext ?_)
    match a with
    | ⟨0, _⟩ => show win1_5.index t (0 : Fin 2) * 1 + 1 * 0 = 0; omega
    | ⟨1, _⟩ =>
      show win1_5.index t (1 : Fin 2) * 768 + 1 * (j 1).val = win1_6.index t (1 : Fin 2) * 768 + 1 * (j 1).val
      omega
  unfold RowMaps.up
  simp only [hAgg, hNorm, hWg, hBg, hWu, hBu]

/-- An index of the output array is in point t's block iff each coordinate is in the block's range on its axis. -/
theorem mem_block (t : Fin cfg1.N) (i : S100000x768.Idx) :
    i ∈ ((cfg1.win 6).blk t).view.set ↔ ∀ a : Fin 2, win1_6.index t a * S2000x768.size a ≤ (i a).val
      ∧ (i a).val < win1_6.index t a * S2000x768.size a + S2000x768.size a := by
  show i ∈ ((View.whole main_v30).slice (win1_6.rect t)).set ↔ _
  rw [View.set_slice_whole, Rect.mem_set_unit]
  exact Iff.rfl

/-- Every index of the output array is in some point's block: row r is in block r / 2000. -/
theorem covered (i : S100000x768.Idx) :
    ∃ t : Fin cfg1.N, (cfg1.win 6).flush t = true ∧ i ∈ ((cfg1.win 6).blk t).view.set := by
  have hi0 : (i 0).val < 100000 := (i 0).isLt
  have hi1 : (i 1).val < 768 := (i 1).isLt
  obtain ⟨t, ht⟩ := every_block_row ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_block]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 768 ≤ (i 1).val ∧ (i 1).val < win1_6.index t (1 : Fin 2) * 768 + 768
    omega

/-- The output array after the region: the row-wise map of the six arrays the region found. -/
theorem final (c : Dev nD) : (dat1 V c).arrAt 6 cfg1.N
    = RowMaps.up (R := 100000) (V c main_v26) (V c main_v29) (V c main_arg3) (V c main_v27) (V c main_arg5)
        (V c main_v28) :=
  (dat1 V c).arrAt_eq_of_cover 6 _ (fun t _ => flushed_eq V c t) covered

end Cert.KernelIdeal.UpRegion

end
-- ==== Proof.KernelValue.lean ====
/-
  The kernel program's result as one function of its nine arguments.

  Two host chains are named, since the reference applies the same ones: the degree norm of an index vector (ones
  accumulated at the indices into zeros, clamped below by one, inverse square root) and the aggregation along the
  edges (rows gathered at the source indices, negative indices shifted up by the node count first, accumulated at
  the destination indices into zeros).

  The first host stretch leaves the bias as a row, the source norm as a column and the destination norm; the first
  kernel's array is then the row-wise map `RowMaps.down` of the features, the weight, that row and that column.
  The second stretch aggregates that array and reshapes the two remaining biases and the destination norm; the
  second kernel's array, the result, is the row-wise map `RowMaps.up` of those. Nothing else writes the buffers
  the two kernels read.
-/
import proofs.«158182_j76330158785174_2_alg».proof.Proof.DownRegion
import proofs.«158182_j76330158785174_2_alg».proof.Proof.UpRegion
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

/-- The degree norm of an index vector: how often each node occurs in it, at least one, to the power −1/2. -/
def degreeNorm (idx : IVec S1600000 32) : FVec Ideal S100000 .f32 :=
  Host.rsqrt (maximumf
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The rows of h gathered at the source indices (a negative index shifted up by the node count first) and
    accumulated at the destination indices into zeros. -/
def aggregate (h : FVec Ideal S100000x128 .bf16) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      bitsLt_bf16_f32)

/-- The features projected down, the bias added, each row scaled by its node's source-degree norm. -/
def scaled (x : FVec Ideal S100000x768 .f32) (wd : FVec Ideal S768x128 .f32) (bd : FVec Ideal S128 .f32)
    (src : IVec S1600000 32) : FVec Ideal S100000x128 .bf16 :=
  RowMaps.down (R := 100000) x wd (shapeCast S1x128 bd shapeCasts_S128_S1x128)
    (shapeCast S100000x1 (degreeNorm src) shapeCasts_S100000_S100000x1)

/-- Aggregated rows scaled by the destination-degree norm, through Wg and its bias, then Wu and its bias. -/
def finish (a : FVec Ideal S100000x128 .f32) (wg : FVec Ideal S128x128 .f32) (bg : FVec Ideal S128 .f32)
    (wu : FVec Ideal S128x768 .f32) (bu : FVec Ideal S768 .f32) (dst : IVec S1600000 32) :
    FVec Ideal S100000x768 .f32 :=
  RowMaps.up (R := 100000) a (shapeCast S100000x1 (degreeNorm dst) shapeCasts_S100000_S100000x1) wg
    (shapeCast S1x128 bg shapeCasts_S128_S1x128) wu (shapeCast S1x768 bu shapeCasts_S768_S1x768)

/-- The result as one function of the nine argument arrays. -/
def result (x : FVec Ideal S100000x768 .f32) (wd : FVec Ideal S768x128 .f32) (bd : FVec Ideal S128 .f32)
    (wg : FVec Ideal S128x128 .f32) (bg : FVec Ideal S128 .f32) (wu : FVec Ideal S128x768 .f32)
    (bu : FVec Ideal S768 .f32) (src dst : IVec S1600000 32) : FVec Ideal S100000x768 .f32 :=
  finish (aggregate (scaled x wd bd src) src dst) wg bg wu bu dst

/-! ## What each host stretch leaves, over any contents W it starts from -/

section Stretches

variable (W : Valuation τ sig (Elt Ideal))

theorem first_bias : (StableHlo.after (hostOps0 (F := Ideal)) W (Proc.devRef .tc main_v13) : S1x128.Idx → EReal)
    = shapeCast S1x128 (W (Proc.devRef .tc main_arg2)) shapeCasts_S128_S1x128 := by
  after_results; rfl

theorem first_src_norm : (StableHlo.after (hostOps0 (F := Ideal)) W (Proc.devRef .tc main_v14) : S100000x1.Idx → EReal)
    = shapeCast S100000x1 (degreeNorm (W (Proc.devRef .tc main_arg7))) shapeCasts_S100000_S100000x1 := by
  after_results; rfl

theorem first_dst_norm : (StableHlo.after (hostOps0 (F := Ideal)) W (Proc.devRef .tc main_v12) : S100000.Idx → EReal)
    = degreeNorm (W (Proc.devRef .tc main_arg8)) := by
  after_results; rfl

theorem first_arg0 : StableHlo.after (hostOps0 (F := Ideal)) W (Proc.devRef .tc main_arg0) = W (Proc.devRef .tc main_arg0) := by
  after_results
theorem first_arg1 : StableHlo.after (hostOps0 (F := Ideal)) W (Proc.devRef .tc main_arg1) = W (Proc.devRef .tc main_arg1) := by
  after_results
theorem first_arg3 : StableHlo.after (hostOps0 (F := Ideal)) W (Proc.devRef .tc main_arg3) = W (Proc.devRef .tc main_arg3) := by
  after_results
theorem first_arg4 : StableHlo.after (hostOps0 (F := Ideal)) W (Proc.devRef .tc main_arg4) = W (Proc.devRef .tc main_arg4) := by
  after_results
theorem first_arg5 : StableHlo.after (hostOps0 (F := Ideal)) W (Proc.devRef .tc main_arg5) = W (Proc.devRef .tc main_arg5) := by
  after_results
theorem first_arg6 : StableHlo.after (hostOps0 (F := Ideal)) W (Proc.devRef .tc main_arg6) = W (Proc.devRef .tc main_arg6) := by
  after_results
theorem first_arg7 : StableHlo.after (hostOps0 (F := Ideal)) W (Proc.devRef .tc main_arg7) = W (Proc.devRef .tc main_arg7) := by
  after_results
theorem first_arg8 : StableHlo.after (hostOps0 (F := Ideal)) W (Proc.devRef .tc main_arg8) = W (Proc.devRef .tc main_arg8) := by
  after_results

theorem second_aggregated : (StableHlo.after (hostOps1 (F := Ideal)) W (Proc.devRef .tc main_v26) : S100000x128.Idx → EReal)
    = aggregate (W (Proc.devRef .tc main_v15)) (W (Proc.devRef .tc main_arg7)) (W (Proc.devRef .tc main_arg8)) := by
  after_results; rfl

theorem second_dst_norm : (StableHlo.after (hostOps1 (F := Ideal)) W (Proc.devRef .tc main_v29) : S100000x1.Idx → EReal)
    = shapeCast S100000x1 (W (Proc.devRef .tc main_v12)) shapeCasts_S100000_S100000x1 := by
  after_results; rfl

theorem second_mid_bias : (StableHlo.after (hostOps1 (F := Ideal)) W (Proc.devRef .tc main_v27) : S1x128.Idx → EReal)
    = shapeCast S1x128 (W (Proc.devRef .tc main_arg4)) shapeCasts_S128_S1x128 := by
  after_results; rfl

theorem second_out_bias : (StableHlo.after (hostOps1 (F := Ideal)) W (Proc.devRef .tc main_v28) : S1x768.Idx → EReal)
    = shapeCast S1x768 (W (Proc.devRef .tc main_arg6)) shapeCasts_S768_S1x768 := by
  after_results; rfl

theorem second_arg3 : StableHlo.after (hostOps1 (F := Ideal)) W (Proc.devRef .tc main_arg3) = W (Proc.devRef .tc main_arg3) := by
  after_results
theorem second_arg5 : StableHlo.after (hostOps1 (F := Ideal)) W (Proc.devRef .tc main_arg5) = W (Proc.devRef .tc main_arg5) := by
  after_results

end Stretches

/-! ## The fold, walked from the result buffer back to the launch memory -/

section Fold

variable (m : (ℓ : Loc nD τ sig) → Buf (Elt Ideal) ℓ) (ρ : Dev nD → PrngReg) (c : Dev nD)

/-- An argument the first kernel does not stage is, after it, what the launch memory held. -/
theorem after_first_kernel_arg3 : W2 m ρ c (Proc.devRef .tc main_arg3) = (m ((c : Thread nD τ).loc main_arg3)) :=
  (W2_of_ne m ρ c main_arg3 (by decide)).trans (first_arg3 (W0 m ρ c))
theorem after_first_kernel_arg4 : W2 m ρ c (Proc.devRef .tc main_arg4) = (m ((c : Thread nD τ).loc main_arg4)) :=
  (W2_of_ne m ρ c main_arg4 (by decide)).trans (first_arg4 (W0 m ρ c))
theorem after_first_kernel_arg5 : W2 m ρ c (Proc.devRef .tc main_arg5) = (m ((c : Thread nD τ).loc main_arg5)) :=
  (W2_of_ne m ρ c main_arg5 (by decide)).trans (first_arg5 (W0 m ρ c))
theorem after_first_kernel_arg6 : W2 m ρ c (Proc.devRef .tc main_arg6) = (m ((c : Thread nD τ).loc main_arg6)) :=
  (W2_of_ne m ρ c main_arg6 (by decide)).trans (first_arg6 (W0 m ρ c))
theorem after_first_kernel_arg7 : W2 m ρ c (Proc.devRef .tc main_arg7) = (m ((c : Thread nD τ).loc main_arg7)) :=
  (W2_of_ne m ρ c main_arg7 (by decide)).trans (first_arg7 (W0 m ρ c))
theorem after_first_kernel_arg8 : W2 m ρ c (Proc.devRef .tc main_arg8) = (m ((c : Thread nD τ).loc main_arg8)) :=
  (W2_of_ne m ρ c main_arg8 (by decide)).trans (first_arg8 (W0 m ρ c))

/-- The destination norm computed before the first kernel is still there after it. -/
theorem after_first_kernel_dst_norm : (W2 m ρ c (Proc.devRef .tc main_v12) : S100000.Idx → EReal)
    = degreeNorm (m ((c : Thread nD τ).loc main_arg8)) :=
  (W2_of_ne m ρ c main_v12 (by decide)).trans (first_dst_norm (W0 m ρ c))

/-- The first kernel's output array: the scaled down-projection of the launch arguments. -/
theorem after_first_kernel_out : (W2 m ρ c (Proc.devRef .tc main_v15) : S100000x128.Idx → EReal)
    = scaled (m ((c : Thread nD τ).loc main_arg0)) (m ((c : Thread nD τ).loc main_arg1)) (m ((c : Thread nD τ).loc main_arg2)) (m ((c : Thread nD τ).loc main_arg7)) := by
  refine (W2_arr m ρ c 4).trans ((DownRegion.final (V1 m ρ) c).trans ?_)
  show RowMaps.down (R := 100000) (StableHlo.after (hostOps0 (F := Ideal)) (W0 m ρ c) (Proc.devRef .tc main_arg0))
      (StableHlo.after (hostOps0 (F := Ideal)) (W0 m ρ c) (Proc.devRef .tc main_arg1))
      (StableHlo.after (hostOps0 (F := Ideal)) (W0 m ρ c) (Proc.devRef .tc main_v13))
      (StableHlo.after (hostOps0 (F := Ideal)) (W0 m ρ c) (Proc.devRef .tc main_v14)) = _
  rw [first_arg0, first_arg1, first_bias, first_src_norm]
  rfl

/-- The result buffer at the end of the fold: the result function of the launch arguments. -/
theorem fold_result : (W4 m ρ c (Proc.devRef .tc main_v30) : S100000x768.Idx → EReal)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ((UpRegion.final (V3 m ρ) c).trans ?_)
  show RowMaps.up (R := 100000) (StableHlo.after (hostOps1 (F := Ideal)) (W2 m ρ c) (Proc.devRef .tc main_v26))
      (StableHlo.after (hostOps1 (F := Ideal)) (W2 m ρ c) (Proc.devRef .tc main_v29))
      (StableHlo.after (hostOps1 (F := Ideal)) (W2 m ρ c) (Proc.devRef .tc main_arg3))
      (StableHlo.after (hostOps1 (F := Ideal)) (W2 m ρ c) (Proc.devRef .tc main_v27))
      (StableHlo.after (hostOps1 (F := Ideal)) (W2 m ρ c) (Proc.devRef .tc main_arg5))
      (StableHlo.after (hostOps1 (F := Ideal)) (W2 m ρ c) (Proc.devRef .tc main_v28)) = _
  rw [second_aggregated, second_dst_norm, second_arg3, second_mid_bias, second_arg5, second_out_bias,
    after_first_kernel_out, after_first_kernel_dst_norm, after_first_kernel_arg3, after_first_kernel_arg4,
    after_first_kernel_arg5, after_first_kernel_arg6, after_first_kernel_arg7, after_first_kernel_arg8]
  rfl

end Fold

end Cert.KernelIdeal.KernelValue

end
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.ReferenceValue.lean ====
/-
  The reference's result is the kernel program's result function of the same nine arguments.

  The reference computes the same two degree norms with the same host operations. Its scaled down-projection,
  read at (r, q), is (the sum over k of x(r, k) · Wd(k, q), plus bd(q)) times the source norm of r: the row-wise map
  with the bias read as a row and the norm as a column. It aggregates along the edges with the same gather and the
  same accumulation. Its remaining operations, read at (r, q), are the destination norm of r times the aggregated
  row, through Wg plus bg, through Wu plus bu: the second row-wise map. Every product is the plain sum over its
  contraction positions, so no entry needs to be finite.
-/
import proofs.«158182_j76330158785174_2_alg».proof.Proof.Gen.ReferenceIdeal.Read
import proofs.«158182_j76330158785174_2_alg».proof.Proof.KernelValue
import proofs.«158182_j76330158785174_2_alg».proof.Proof.LibVectorAsMatrix

set_option maxRecDepth 16384

noncomputable section

namespace Cert.ReferenceIdeal.RefValue

open Cert.ReferenceIdeal Cert.ReferenceIdeal.Read Idealize.ShloMosaic Idealize.ShloMosaic.ValueIdx
open Cert.KernelIdeal.KernelValue (degreeNorm aggregate scaled finish result)

variable (x0 : (⟨S100000x768, .f32⟩ : BufTy).Contents (Elt Ideal)) (x1 : (⟨S768x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x768, .f32⟩ : BufTy).Contents (Elt Ideal))
  (x6 : (⟨S768, .f32⟩ : BufTy).Contents (Elt Ideal)) (x7 x8 : (⟨S1600000, .i32⟩ : BufTy).Contents (Elt Ideal))

/-- The reference's source-degree norm is the same chain of host operations. -/
theorem src_norm : val_main_v13 (F := Ideal) x7 = degreeNorm x7 := rfl

/-- The reference's destination-degree norm is the same chain of host operations. -/
theorem dst_norm : val_main_v16 (F := Ideal) x8 = degreeNorm x8 := rfl

/-- The reference's scaled down-projection is the first row-wise map. -/
theorem scaled_eq : val_main_v19 (F := Ideal) x0 x1 x2 x7 = scaled x0 x1 x2 x7 := by
  funext i
  have el : ∀ k, lidx_main_v0 i k = ix2 (i 0) k := fun k =>
    funext fun a => Fin.ext (by match a with | ⟨0, _⟩ => rfl | ⟨1, _⟩ => rfl)
  have er : ∀ k, ridx_main_v0 i k = ix2 k (i 1) := fun k =>
    funext fun a => Fin.ext (by match a with | ⟨0, _⟩ => rfl | ⟨1, _⟩ => rfl)
  have eb : idx_main_v1 (idx_main_v2 i) = ix1 (i 1) := funext fun a => Fin.ext (by match a with | ⟨0, _⟩ => rfl)
  have es : idx_main_v17 (idx_main_v18 i) = ix1 (i 0) := funext fun a => Fin.ext (by match a with | ⟨0, _⟩ => rfl)
  rw [val_main_v19_apply, val_main_v3_apply, val_main_v0_apply, val_main_v2_apply, val_main_v1_apply,
    val_main_v18_apply, val_main_v17_apply, src_norm]
  unfold scaled RowMaps.down
  have hb := VectorAsMatrix.row_apply (n := 128) x2 Cert.KernelIdeal.Gen.shapeCasts_S128_S1x128 0 (i 1)
  have hs := VectorAsMatrix.col_apply (n := 100000) (degreeNorm x7) Cert.KernelIdeal.Gen.shapeCasts_S100000_S100000x1
    (i 0) 0
  rw [hb, hs, eb, es]
  simp only [el, er, Ideal.mulf_def, Ideal.addf_def]
  rfl

/-- The reference aggregates along the edges with the same gather and the same accumulation. -/
theorem aggregated_eq : val_main_v29 (F := Ideal) x0 x1 x2 x7 x8
    = aggregate (val_main_v19 (F := Ideal) x0 x1 x2 x7) x7 x8 := rfl

/-- The reference's remaining operations are the second row-wise map of its aggregated rows. -/
theorem finish_eq : val_main_v40 (F := Ideal) x0 x1 x2 x3 x4 x5 x6 x7 x8
    = finish (val_main_v29 (F := Ideal) x0 x1 x2 x7 x8) x3 x4 x5 x6 x8 := by
  funext i
  obtain ⟨r, q, rfl⟩ : ∃ (r : Fin 100000) (q : Fin 768), i = ix2 r q := ⟨i 0, i 1, eq_ix2 i⟩
  have eol : ∀ k : Fin 128, lidx_main_v37 (ix2 r q) k = ix2 r k := fun k => funext fun a => Fin.ext (by match a with | ⟨0, _⟩ => rfl | ⟨1, _⟩ => rfl)
  have eor : ∀ k : Fin 128, ridx_main_v37 (ix2 r q) k = ix2 k q := fun k => funext fun a => Fin.ext (by match a with | ⟨0, _⟩ => rfl | ⟨1, _⟩ => rfl)
  have eob : idx_main_v38 (idx_main_v39 (ix2 r q)) = ix1 q := funext fun a => Fin.ext (by match a with | ⟨0, _⟩ => rfl)
  have eml : ∀ k l : Fin 128, lidx_main_v33 (ix2 r k) l = ix2 r l := fun k l => funext fun a => Fin.ext (by match a with | ⟨0, _⟩ => rfl | ⟨1, _⟩ => rfl)
  have emr : ∀ k l : Fin 128, ridx_main_v33 (ix2 r k) l = ix2 l k := fun k l => funext fun a => Fin.ext (by match a with | ⟨0, _⟩ => rfl | ⟨1, _⟩ => rfl)
  have emb : ∀ k : Fin 128, idx_main_v34 (idx_main_v35 (ix2 r k)) = ix1 k := fun k => funext fun a => Fin.ext (by match a with | ⟨0, _⟩ => rfl)
  have ems : ∀ l : Fin 128, idx_main_v30 (idx_main_v31 (ix2 r l)) = ix1 r := fun l => funext fun a => Fin.ext (by match a with | ⟨0, _⟩ => rfl)
  show _ = (∑ k : Fin 128, ((∑ l : Fin 128, (val_main_v29 (F := Ideal) x0 x1 x2 x7 x8 (ix2 r l)
        * shapeCast Cert.KernelIdeal.S100000x1 (degreeNorm x8) Cert.KernelIdeal.Gen.shapeCasts_S100000_S100000x1 (ix2 r 0)) * x3 (ix2 l k))
      + shapeCast Cert.KernelIdeal.S1x128 x4 Cert.KernelIdeal.Gen.shapeCasts_S128_S1x128 (ix2 0 k)) * x5 (ix2 k q))
    + shapeCast Cert.KernelIdeal.S1x768 x6 Cert.KernelIdeal.Gen.shapeCasts_S768_S1x768 (ix2 0 q)
  rw [val_main_v40_apply, val_main_v37_apply, val_main_v39_apply, val_main_v38_apply, eob, Ideal.addf_def,
    VectorAsMatrix.row_apply, VectorAsMatrix.col_apply]
  refine congrArg₂ (· + ·) (Finset.sum_congr rfl fun k _ => ?_) rfl
  rw [eol, eor, val_main_v36_apply, val_main_v33_apply, val_main_v35_apply, val_main_v34_apply, emb,
    VectorAsMatrix.row_apply, Ideal.addf_def]
  refine congrArg₂ (· * ·) (congrArg₂ (· + ·) (Finset.sum_congr rfl fun l _ => ?_) rfl) rfl
  rw [eml, emr, val_main_v32_apply, val_main_v31_apply, val_main_v30_apply, ems, dst_norm, Ideal.mulf_def]

/-- The reference's result is the kernel program's result function of the same arguments. -/
theorem result_eq : val_main_v40 (F := Ideal) x0 x1 x2 x3 x4 x5 x6 x7 x8 = result x0 x1 x2 x3 x4 x5 x6 x7 x8 := by
  rw [finish_eq, aggregated_eq, scaled_eq]
  rfl

end Cert.ReferenceIdeal.RefValue

end
-- ==== Proof.lean ====
/- The proof of `Cert.Claim`: a graph convolution normalised by both degrees, between a projection from 768 features
   down to 128 and a projection back up, computed by two tiled kernels around a host aggregation, against the same
   computation written with whole-array operations.

   Both programs compute the two degree norms, the gather along the edges and the accumulation at the destinations
   with the same host operations. What differs is that the kernels do the three matrix products, the bias additions
   and the two scalings by a norm 2000 rows at a time, with the norms fused in. Each of those steps acts on every row
   independently, so a block of rows of the result depends only on the same block of rows of the row-indexed
   operands, and the 50 blocks tile the 100000 rows. At the ideal instance a product into a zero accumulator is the
   plain sum over its contraction positions, as the whole-array product is, and a change of float format is the
   identity. The two results are therefore one function of the nine arguments, index by index, with no entry
   required to be finite; the precondition is not used.

   The word-level kernel and its idealization are the same text (no rewrite was applied), so the third claim is
   trivial; the three frames are the programs' runs with the results dropped. -/
import proofs.«158182_j76330158785174_2_alg».proof.Defs
import proofs.«158182_j76330158785174_2_alg».proof.Proof.Gen.Kernel
import proofs.«158182_j76330158785174_2_alg».proof.Proof.Gen.Kernel.Skeleton
import proofs.«158182_j76330158785174_2_alg».proof.Proof.Gen.Kernel.Launch
import proofs.«158182_j76330158785174_2_alg».proof.Proof.Gen.Kernel.Points
import proofs.«158182_j76330158785174_2_alg».proof.Proof.Gen.Kernel.Frame
import proofs.«158182_j76330158785174_2_alg».proof.Proof.Gen.KernelIdeal
import proofs.«158182_j76330158785174_2_alg».proof.Proof.Gen.KernelIdeal.Skeleton
import proofs.«158182_j76330158785174_2_alg».proof.Proof.Gen.KernelIdeal.Launch
import proofs.«158182_j76330158785174_2_alg».proof.Proof.Gen.KernelIdeal.Points
import proofs.«158182_j76330158785174_2_alg».proof.Proof.Gen.KernelIdeal.Frame
import proofs.«158182_j76330158785174_2_alg».proof.Proof.Gen.ReferenceIdeal
import proofs.«158182_j76330158785174_2_alg».proof.Proof.Gen.ReferenceIdeal.Run
import proofs.«158182_j76330158785174_2_alg».proof.Proof.Gen.Pre_finite_inputs
import proofs.«158182_j76330158785174_2_alg».proof.Proof.WholeRun
import proofs.«158182_j76330158785174_2_alg».proof.Proof.KernelValue
import proofs.«158182_j76330158785174_2_alg».proof.Proof.ReferenceValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the result buffer at one function of
    those arguments: the kernel program by its four segments' fold, the reference by its operations read stage by
    stage. -/
theorem algebraic : Cert.algebraic_KernelIdeal_ReferenceIdeal := by
  intro m ρ m' ρ' _ hagree
  refine ⟨fun c => Cert.KernelIdeal.KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.fold_result m ρ c), (h c).2⟩)
      (Cert.KernelIdeal.WholeRun.result_at_fold (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    beta_reduce
    rw [← h0, ← h1, ← h2, ← h3, ← h4, ← h5, ← h6, ← h7, ← h8]
    exact (Cert.ReferenceIdeal.Read.val_main_v40_eq _ _ _ _ _ _ _ _ _).trans (Cert.ReferenceIdeal.RefValue.result_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
